-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x32768 : Shape := ⟨3, ![4, 2048, 32768]⟩
abbrev S_ : Shape := ⟨0, ![]⟩

class Facts : Prop where
  bcast_S_S4x2048x32768 : S_.BroadcastsInDim S4x2048x32768 (![] : Fin 0 → Fin S4x2048x32768.rank)
  reducesTo_S4x2048x32768_S_d0_1_2 : S4x2048x32768.ReducesTo [0, 1, 2] S_
  h_S_ : 0 < S_.numel

variable [Facts]

def fn {F : FTy → Type} [FloatOps F] (main_arg0 : FVec F S4x2048x32768 .f32) : IVec S_ 1 :=
  let main_v0 : FVec F S4x2048x32768 .f32 := Host.absf main_arg0
  let main_cst : FVec F S_ .f32 := constant S_ .f32 0x7F800000#32
  let main_v1 : FVec F S4x2048x32768 .f32 := broadcastInDim S4x2048x32768 ![] bcast_S_S4x2048x32768 main_cst
  let main_v2 : IVec S4x2048x32768 1 := cmpf .olt main_v0 main_v1
  let main_c : IVec S_ 1 := constantI S_ 1 1#1
  let main_v3 : IVec S_ 1 := (fun x v => Host.reduce IntOp.andi x v reducesTo_S4x2048x32768_S_d0_1_2 h_S_) main_v2 main_c
  main_v3
-- ==== Kernel.lean ====
abbrev S4x2048x32768 : Shape := ⟨3, ![4, 2048, 32768]⟩
abbrev S8192x32768 : Shape := ⟨2, ![8192, 32768]⟩
abbrev S8192x16384 : Shape := ⟨2, ![8192, 16384]⟩
abbrev S64x16384 : Shape := ⟨2, ![64, 16384]⟩
abbrev S4x2048x16384 : Shape := ⟨3, ![4, 2048, 16384]⟩

abbrev nBuf : Space → Nat
  | .hbm => 4
  | .vmem => 6
  | .smem => 0
  | _ => 0

abbrev bufTy : (tb : Table) → Fin (tcTables nBuf tb) → BufTy
  | .hbm, ⟨0, _⟩ => ⟨S4x2048x32768, .f32⟩
  | .hbm, ⟨1, _⟩ => ⟨S8192x32768, .f32⟩
  | .hbm, ⟨2, _⟩ => ⟨S8192x16384, .f32⟩
  | .hbm, ⟨3, _⟩ => ⟨S4x2048x16384, .f32⟩
  | .local _ .vmem, ⟨0, _⟩ => ⟨S64x16384, .f32⟩
  | .local _ .vmem, ⟨1, _⟩ => ⟨S64x16384, .f32⟩
  | .local _ .vmem, ⟨2, _⟩ => ⟨S64x16384, .f32⟩
  | .local _ .vmem, ⟨3, _⟩ => ⟨S64x16384, .f32⟩
  | .local _ .vmem, ⟨4, _⟩ => ⟨S64x16384, .f32⟩
  | .local _ .vmem, ⟨5, _⟩ => ⟨S64x16384, .f32⟩
  | _, _ => ⟨S4x2048x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x2048x32768_S8192x32768 : S4x2048x32768.ShapeCasts S8192x32768
  inb_S64x16384_S64x16384_0_0 : ∀ a, (![0, 0] : Fin 2 → Nat) a + S64x16384.size a ≤ S64x16384.size a
  h_S64x16384 : 0 < S64x16384.numel
  shapeCasts_S64x16384_S64x16384 : S64x16384.ShapeCasts S64x16384
  shapeCasts_S8192x16384_S4x2048x16384 : S8192x16384.ShapeCasts S4x2048x16384
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16384.size a ≤ S8192x32768.size a
  hwx0_0 : ∀ i : grid0.Coords, EltTy.bits .f32 = 32 ∨ (Rect.block (s := S8192x32768) S64x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x16384.size a ≤ S8192x32768.size a
  hwx0_1 : ∀ i : grid0.Coords, EltTy.bits .f32 = 32 ∨ (Rect.block (s := S8192x32768) S64x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x16384.size a ≤ S8192x16384.size a
  hwx0_2 : ∀ i : grid0.Coords, EltTy.bits .f32 = 32 ∨ (Rect.block (s := S8192x16384) S64x16384.size (cc0_transform_2 i) (hinb0_2 i)).WholeWords (EltTy.packing .f32)

variable [Facts₀]

abbrev win0_0 : Pipeline.Window sig grid0 :=
  Pipeline.Window.ofSpec (Memref.whole main_v0) S64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x16384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x32768 : Shape := ⟨3, ![4, 2048, 32768]⟩
abbrev S4x2048x16384 : Shape := ⟨3, ![4, 2048, 16384]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x32768, .f32⟩
  | .hbm, ⟨1, _⟩ => ⟨S4x2048x16384, .f32⟩
  | .hbm, ⟨2, _⟩ => ⟨S4x2048x16384, .f32⟩
  | .hbm, ⟨3, _⟩ => ⟨S4x2048x16384, .f32⟩
  | .hbm, ⟨4, _⟩ => ⟨S4x2048x16384, .f32⟩
  | .hbm, ⟨5, _⟩ => ⟨S_, .f32⟩
  | .hbm, ⟨6, _⟩ => ⟨S4x2048x16384, .f32⟩
  | .hbm, ⟨7, _⟩ => ⟨S4x2048x16384, .f32⟩
  | .hbm, ⟨8, _⟩ => ⟨S_, .f32⟩
  | .hbm, ⟨9, _⟩ => ⟨S4x2048x16384, .f32⟩
  | .hbm, ⟨10, _⟩ => ⟨S4x2048x16384, .f32⟩
  | .hbm, ⟨11, _⟩ => ⟨S4x2048x16384, .f32⟩
  | .hbm, ⟨12, _⟩ => ⟨S4x2048x16384, .f32⟩
  | _, _ => ⟨S4x2048x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩

abbrev nD : Nat := 1
abbrev τ : Topo := Topo.v7x

variable {F : FTy → Type} [FloatOps F]

class Facts₀ : Prop where
  slices_S4x2048x32768_S4x2048x16384_0_0_0 : S4x2048x32768.Slices ![0, 0, 0] S4x2048x16384
  slices_S4x2048x32768_S4x2048x16384_0_0_16384 : S4x2048x32768.Slices ![0, 0, 16384] S4x2048x16384
  bcast_S_S4x2048x16384 : S_.BroadcastsInDim S4x2048x16384 (![] : Fin 0 → Fin S4x2048x16384.rank)

variable [Facts₀]

class Facts : Prop extends Facts₀ where

variable [Facts]
-- ==== Proof.BodyK.lean ====
/-
  The kernel body at one grid point. It reads the gate block and the up block whole from their staging
  buffers, and writes the output staging buffer whole with  (g · logistic g) · u  taken entry by entry.
  This file states what the output buffer holds afterwards as a function of the two input blocks, and
  proves the separation-logic triple of the body for any float interpretation.
-/
import proofs.«142945_j5334349382092_2_alg».proof.Proof.Gen.Kernel.Launch
import proofs.«142945_j5334349382092_2_alg».proof.Proof.Gen.Kernel.Skeleton
import proofs.«142945_j5334349382092_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangle of every access of the body: the whole 64 × 16384 tile. -/
abbrev tile : Rect S64x16384 := Rect.unit (s := S64x16384) ![0, 0] S64x16384.size inb_S64x16384_S64x16384_0_0

/-- The output tile after the body, from the gate tile `g` and the up tile `u`: the one store, of
    (g · logistic g) · u, laid over the whole tile. -/
def outTile (g : Vec F S64x16384 .f32) (u : Vec F S64x16384 .f32) : Vec F S64x16384 .f32 :=
  View.canon [⟨tile, k0_pay1 (View.ld g tile) (View.ld u tile)⟩]

/-- The one store covers the tile. -/
theorem outTile_cover (p0 : Vec F S64x16384 .f32) (y : S64x16384.Idx) :
    ∃ pc ∈ ([⟨tile, p0⟩] : List (View.Piece (Elt F) S64x16384 .f32)), y ∈ pc.1.set :=
  View.cover_of_tiled [⟨tile, p0⟩] S64x16384.size (by rfl) y

set_option maxHeartbeats 1000000 in
/-- The body on three whole staging buffers — gate at `g`, up at `u`, output at anything — runs without fault
    and leaves the inputs as they were and the output at `outTile g u`. -/
theorem body_triple (c : Dev nD) (E : Set ℕ) (i : grid0.Coords)
    (arg1 : Memref sig .tc .vmem S64x16384 .f32) (harg1 : arg1.IsWhole)
    (arg2 : Memref sig .tc .vmem S64x16384 .f32) (harg2 : arg2.IsWhole)
    (arg3 : Memref sig .tc .vmem S64x16384 .f32) (harg3 : arg3.IsWhole)
    (g : Vec F S64x16384 .f32) (u : Vec F S64x16384 .f32) (K : PUnit → sProp 𝕄) :
    iprop(owns (c : Thread nD τ) arg1 fullShare g ∗ owns (c : Thread nD τ) arg2 fullShare u ∗ (∃ d, owns (c : Thread nD τ) arg3 fullShare d)
        ∗ (iprop(owns (c : Thread nD τ) arg1 fullShare g ∗ owns (c : Thread nD τ) arg2 fullShare u ∗ owns (c : Thread nD τ) arg3 fullShare (outTile g u)) -∗ K ⟨⟩))
      ⊢ wp frame (wpE (defs₀ (F := F)) Variants.none c none) E (cc0__silu_mul_kernel i arg1 harg1 arg2 harg2 arg3 harg3) K := by
  simp only [cc0__silu_mul_kernel_eq_skeleton]; unfold cc0__silu_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outTile_cover _)

end Cert.Kernel.Hand

end
-- ==== Proof.DataK.lean ====
/-
  The proof data of the one pipeline. The region finds the reshaped input (8192 × 32768) in one buffer that
  two input windows read: at grid point t the gate window stages rows 64·t … 64·t+63 of columns 0 … 16383 and
  the up window the same rows of columns 16384 … 32767; the output window's tile of point t goes to the same
  rows of the 8192 × 16384 result. Each input window holds half of the share of the common buffer.
  After the body at point t the input tiles are as fetched and the output tile is `outTile` of them.
-/
import proofs.«142945_j5334349382092_2_alg».proof.Proof.BodyK
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents when the region is entered -/

/-- Core `c`'s buffers at launch. -/
abbrev W0 : Dev nD → Valuation τ sig (Elt F) := fun c b => (s₀ m ρ).mem ((c : Dev nD), b)
/-- After the reshape of the argument to 8192 × 32768: what the region is entered with. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b

/-- Window `w`'s tile at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V1 m ρ c (Pipeline.arrRef spec0 w))

/-! ## The proof data -/

/-- The share each window holds of its array: the two input windows on the common buffer a half each. -/
def qshare : Fin cfg0.W → PosShare TreeShare
  | ⟨0, _⟩ => fullShare.left
  | ⟨1, _⟩ => fullShare.right
  | _ => fullShare

def dats (_ : Fin 1) (c : Dev nD) : Dat τ (Elt F) Unit ℕ (UR sig nD τ) ℕ cfg0 c where
  A w := V1 m ρ c (Pipeline.arrRef spec0 w)
  after w t := match w with
    | ⟨0, _⟩ => iblk m ρ c 0 t
    | ⟨1, _⟩ => iblk m ρ c 1 t
    | ⟨2, _⟩ => outTile (iblk m ρ c 0 t) (iblk m ρ c 1 t)
  Φ _ := Pipeline.ΦA spec0 c
  q := qshare
  owed _ := 0

theorem A_eq (c : Dev nD) (w : Fin cfg0.W) : (dats m ρ 0 c).A w = V1 m ρ c (Pipeline.arrRef spec0 w) := by
  dsimp only [dats]

theorem after0_0 (c : Dev nD) (t : Fin cfg0.N) : (dats m ρ 0 c).after 0 t = iblk m ρ c 0 t := by dsimp only [dats]
theorem after0_1 (c : Dev nD) (t : Fin cfg0.N) : (dats m ρ 0 c).after 1 t = iblk m ρ c 1 t := by dsimp only [dats]
theorem after0_2 (c : Dev nD) (t : Fin cfg0.N) :
    (dats m ρ 0 c).after 2 t = outTile (iblk m ρ c 0 t) (iblk m ρ c 1 t) := by dsimp only [dats]

/-- Each input window is fetched at every point, so its staging buffer holds its tile when the body runs. -/
theorem before0_0 (c : Dev nD) (t : Fin cfg0.N) (d) : (dats m ρ 0 c).before 0 t d = iblk m ρ c 0 t :=
  ((dats m ρ 0 c).before_fetched 0 t (fetch0_0 t) d).trans
    (by unfold Dat.fetched Dat.blockOf iblk; rw [A_eq]; try rfl)
theorem before0_1 (c : Dev nD) (t : Fin cfg0.N) (d) : (dats m ρ 0 c).before 1 t d = iblk m ρ c 1 t :=
  ((dats m ρ 0 c).before_fetched 1 t (fetch0_1 t) d).trans
    (by unfold Dat.fetched Dat.blockOf iblk; rw [A_eq]; try rfl)

/-! ## The body obligation -/

def bodyPre (c : Dev nD) (t : Fin cfg0.N) : sProp 𝕄 :=
  iprop((dats m ρ 0 c).Φ t.castSucc ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d)))

def bodyPost (c : Dev nD) (t : Fin cfg0.N) : sProp 𝕄 :=
  iprop((dats m ρ 0 c).Φ t.succ ∗ (dats m ρ 0 c).owesAt () t.succ
    ∗ owns (c : Thread nD τ) (st0_0 t) fullShare ((dats m ρ 0 c).after 0 t)
    ∗ owns (c : Thread nD τ) (st0_1 t) fullShare ((dats m ρ 0 c).after 1 t)
    ∗ owns (c : Thread nD τ) (st0_2 t) fullShare ((dats m ρ 0 c).after 2 t))

theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0_0, before0_1]
  rw [show (dats m ρ 0 c).Φ t.succ = (dats m ρ 0 c).Φ t.castSucc from rfl,
    show (dats m ρ 0 c).owesAt () t.succ = (dats m ρ 0 c).owesAt () t.castSucc from rfl,
    after0_0, after0_1, after0_2]
  iintro ⟨HΦ, Ho, ⟨%d0, H0⟩, ⟨%d1, H1⟩, ⟨%d2, H2⟩⟩
  iapply (body_triple c Set.univ (grid0.coords t) _ _ _ _ _ _ (iblk m ρ c 0 t) (iblk m ρ c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m ρ 0 c) (defs₀ (F := F)) Variants.none () Set.univ := fun t => by
  rw [bigSep_W0, bigSep_W0]
  exact sound_body m ρ c t

end Cert.Kernel.Hand

end
-- ==== Proof.ShareK.lean ====
/-
  How the buffers are handed to the pipeline and taken back. The device has four unscoped buffers: the argument,
  its 8192 × 32768 reshape, the pipeline's 8192 × 16384 result and the final reshape. The pipeline's three windows
  stand on two of them: the gate window and the up window both on the reshaped input, the output window on the result.
  At entry the full share of the reshaped input is cut in two halves, one per input window; at exit the halves,
  still holding the contents found at entry, are put together again.
-/
import proofs.«142945_j5334349382092_2_alg».proof.Proof.DataK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The device's unscoped buffers, one by one. -/
theorem unscopedBufs_list (c : Dev nD) (V : (b : Ref sig .tc) → Buf (Elt F) ((c : Thread nD τ).loc b)) :
    (unscopedBufs c V : sProp 𝕄)
      = iprop((((c : Thread nD τ).loc main_arg0) ↦{fullShare} V main_arg0) ∗ (((c : Thread nD τ).loc main_v0) ↦{fullShare} V main_v0)
          ∗ (((c : Thread nD τ).loc main_v1) ↦{fullShare} V main_v1) ∗ (((c : Thread nD τ).loc main_v2) ↦{fullShare} V main_v2)) := by
  unfold unscopedBufs
  exact bigSep_eq_bigSepL_of_eq [main_arg0, main_v0, main_v1, main_v2] (by decide) (by decide) _

/-- The pipeline's arrays, window by window, each at its share. -/
theorem arrays_list (c : Dev nD)
    (A : (w : Fin cfg0.W) → Buf (Elt F) ((cfg0.win w).arr.view.loc (c : Thread nD τ))) :
    ((dats m ρ 0 c).arrays A : sProp 𝕄)
      = iprop((((c : Thread nD τ).loc main_v0) ↦{fullShare.left} A 0) ∗ (((c : Thread nD τ).loc main_v0) ↦{fullShare.right} A 1)
          ∗ (((c : Thread nD τ).loc main_v1) ↦{fullShare} A 2)) := by
  unfold Dat.arrays
  rw [bigSep_W0]
  rw [(arr_whole0 0).set_eq_univ, (arr_whole0 2).set_eq_univ]
  rfl

/-! ## The contents when the region is left -/

/-- When the region is left the result buffer holds what the write-backs of all points made of it; every other buffer
    is as the region found it. -/
def W2 (c : Dev nD) : Valuation τ sig (Elt F) :=
  Function.update (W1 m ρ c) (Proc.devRef .tc main_v1) ((dats m ρ 0 c).arrAt 2 cfg0.N)
/-- The same, read at the TensorCore's references. -/
abbrev V2 : (c : Dev nD) → (b : Ref sig .tc) → Buf (Elt F) ((c : Thread nD τ).loc b) := fun c b => W2 m ρ c b

theorem V2_v1 (c : Dev nD) : V2 m ρ c main_v1 = (dats m ρ 0 c).arrAt 2 cfg0.N := by
  show W2 m ρ c (Proc.devRef .tc main_v1) = _
  unfold W2; exact Function.update_self ..
theorem V2_of_ne (c : Dev nD) (b : Ref sig .tc) (h : b ≠ main_v1) : V2 m ρ c b = V1 m ρ c b := by
  show W2 m ρ c (Proc.devRef .tc b) = W1 m ρ c (Proc.devRef .tc b)
  unfold W2; exact Function.update_of_ne (StableHlo.devRef_ne_of_ne h) ..

/-- An input window's array is never written: after all points it holds what the region found. -/
theorem arrAt_in0 (c : Dev nD) (n : Nat) : (dats m ρ 0 c).arrAt 0 n = V1 m ρ c main_v0 :=
  ((dats m ρ 0 c).arrAt_in 0 rfl n).trans (A_eq m ρ c 0)
theorem arrAt_in1 (c : Dev nD) (n : Nat) : (dats m ρ 0 c).arrAt 1 n = V1 m ρ c main_v0 :=
  ((dats m ρ 0 c).arrAt_in 1 rfl n).trans (A_eq m ρ c 1)

/-- ENTRY: the unscoped buffers as the region finds them are the pipeline's arrays at their entry contents — the
    reshaped input's share halved between the two input windows — and the two buffers no window stands on. -/
theorem entry_split (c : Dev nD) :
    (unscopedBufs c (V1 m ρ c) : sProp 𝕄)
      ⊢ iprop((dats m ρ 0 c).arrays ((dats m ρ 0 c).arrAt · 0) ∗ Pipeline.unscopedRest spec0 c (V1 m ρ c)) := by
  rw [unscopedBufs_list, arrays_list, unscopedRest0_eq]
  beta_reduce
  rw [arrAt_in0, arrAt_in1, show (dats m ρ 0 c).arrAt 2 0 = V1 m ρ c main_v1 from A_eq m ρ c 2]
  have hs : ((((c : Thread nD τ).loc main_v0) ↦{fullShare} V1 m ρ c main_v0) : sProp 𝕄)
      ⊢ iprop((((c : Thread nD τ).loc main_v0) ↦{fullShare.left} V1 m ρ c main_v0) ∗ (((c : Thread nD τ).loc main_v0) ↦{fullShare.right} V1 m ρ c main_v0)) :=
    (pointsTo_share (PosShare.mem_left_op_right fullShare)).1
  iintro ⟨Ha, H0, H1, H2⟩
  ihave H0' := hs $$ H0
  icases H0' with ⟨Hl, Hr⟩
  isplitl [Hl Hr H1]
  · isplitl [Hl]; · iexact Hl
    isplitl [Hr]; · iexact Hr
    iexact H1
  isplitl [Ha]; · iexact Ha
  iexact H2

/-- EXIT: the arrays after all points and the two bypassing buffers are the unscoped buffers at the exit contents. -/
theorem exit_join (c : Dev nD) :
    iprop((dats m ρ 0 c).arrays ((dats m ρ 0 c).arrAt · cfg0.N) ∗ Pipeline.unscopedRest spec0 c (V1 m ρ c))
      ⊢ (unscopedBufs c (V2 m ρ c) : sProp 𝕄) := by
  rw [unscopedBufs_list, arrays_list, unscopedRest0_eq]
  beta_reduce
  rw [arrAt_in0, arrAt_in1, V2_v1, V2_of_ne m ρ c main_arg0 (by decide), V2_of_ne m ρ c main_v0 (by decide),
    V2_of_ne m ρ c main_v2 (by decide)]
  have hj : iprop((((c : Thread nD τ).loc main_v0) ↦{fullShare.left} V1 m ρ c main_v0) ∗ (((c : Thread nD τ).loc main_v0) ↦{fullShare.right} V1 m ρ c main_v0))
      ⊢ ((((c : Thread nD τ).loc main_v0) ↦{fullShare} V1 m ρ c main_v0) : sProp 𝕄) :=
    (pointsTo_share (PosShare.mem_left_op_right fullShare)).2
  iintro ⟨⟨Hl, Hr, H1⟩, Ha, H2⟩
  ihave H0 := hj $$ [Hl Hr]
  · isplitl [Hl] <;> iassumption
  isplitl [Ha]; · iexact Ha
  isplitl [H0]; · iexact H0
  isplitl [H1]; · iexact H1
  iexact H2

end Cert.Kernel.Hand

end
-- ==== Proof.RunK.lean ====
/-
  The run of the whole program: the reshape of the argument, the pipeline's region, the reshape of its result.
  Between these three stretches the device holds its four unscoped buffers whole at known contents; the region
  takes its arrays out of them at entry and puts them back at exit. Every weakly fair execution terminates without
  fault, and the final memory holds, at every unscoped buffer, the contents computed here.
-/
import proofs.«142945_j5334349382092_2_alg».proof.Proof.ShareK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the reshape of the pipeline's result: the contents at the return. -/
abbrev W3 : Dev nD → Valuation τ sig (Elt F) := fun c => StableHlo.after hostOps1 (W2 m ρ c)

abbrev adm : (p : Fin 1) → (pcfgs (F := F) p).Adm := fun p => (cfgs p).toPCfg_adm
abbrev 𝒱₀ : Variants := Variants.none
abbrev L : GSem nD τ sig → Finset Unit := fun _ => ∅
abbrev lv : GSem nD τ sig → Unit → ℕ := fun _ _ => 0

/-- What rides beside the buffers through every stretch: the generator register at some state, and the core owing nothing. -/
abbrev R (c : Dev nD) : sProp 𝕄 := iprop((∃ r, prngReg c r) ∗ ∃ W, owes (c : Thread nD τ) (0 : CellTallies nD τ sig Unit) W)

/-- A stretch of host operations over the unscoped buffers at the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last state without the `owes`: every unscoped buffer at the contents at the return. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- The region: entered from every unscoped buffer at the contents after the first reshape, left with the result
    buffer at what the pipeline wrote. -/
def reg0 : Pipeline.RegionSeg (pcfgs (F := F)) adm (dats m ρ) () defs₀ 𝒱₀ L lv 0 where
  win := winFacts₀0
  block_pos := block_pos0
  stage_whole := stage_whole0
  K := PEmpty
  osem k := k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's three stretches in order. -/
abbrev segs : List (Pipeline.Seg (pcfgs (F := F)) adm (dats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]

theorem main_run (c : Dev nD) : main (F := F) c = Pipeline.Seg.run (segs m ρ) :=
  main_segs adm (dats m ρ) () 𝒱₀ L lv (hseg hostOps0 hostOps0_sub hostOps0_fresh (W0 m ρ))
    (hseg hostOps1 hostOps1_sub hostOps1_fresh (W2 m ρ)) (reg0 m ρ) rfl rfl c

set_option backward.isDefEq.respectTransparency.types false in
/-- Every weakly fair execution of the program terminates without fault, and the final memory holds at every unscoped
    buffer the contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (dats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (StableHlo.after hostOps1 (W2 m ρ c)) ∗ R c) ⊢ _
      iintro ⟨Hh, Hp, HO⟩
      isplitr [HO]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Hand

end
-- ==== Proof.FrameK.lean ====
/-
  The argument array is written by nothing: neither reshape writes it and the pipeline has no window on it.
  So after every weakly fair execution it holds what it held at launch.
-/
import proofs.«142945_j5334349382092_2_alg».proof.Proof.RunK

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- The first reshape writes only its result. -/
theorem hostOps0_keeps (c : Dev nD) (V : Valuation τ sig (Elt F)) (b : Ref sig .tc) (hb : b ≠ main_v0) :
    StableHlo.after hostOps0 V (Proc.devRef .tc b) = V (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The second reshape writes only its result. -/
theorem hostOps1_keeps (c : Dev nD) (V : Valuation τ sig (Elt F)) (b : Ref sig .tc) (hb : b ≠ main_v2) :
    StableHlo.after hostOps1 V (Proc.devRef .tc b) = V (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- At the return the argument holds what it held at launch. -/
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := hostOps1_keeps c _ main_arg0 (by decide)
    _ = W1 m ρ c (Proc.devRef .tc main_arg0) := V2_of_ne m ρ c main_arg0 (by decide)
    _ = W0 m ρ c (Proc.devRef .tc main_arg0) := hostOps0_keeps c _ main_arg0 (by decide)
    _ = m ((c : Thread nD τ).loc main_arg0) := rfl

/-- The program runs to the end without fault and leaves its argument unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W3_arg0 m ρ c)) (run_main m ρ)

end Cert.Kernel.Hand

end
-- ==== Proof.BodyKI.lean ====
/-
  The kernel body at one grid point. It reads the gate block and the up block whole from their staging
  buffers, and writes the output staging buffer whole with  (g · logistic g) · u  taken entry by entry.
  This file states what the output buffer holds afterwards as a function of the two input blocks, and
  proves the separation-logic triple of the body for any float interpretation.
-/
import proofs.«142945_j5334349382092_2_alg».proof.Proof.Gen.KernelIdeal.Launch
import proofs.«142945_j5334349382092_2_alg».proof.Proof.Gen.KernelIdeal.Skeleton
import proofs.«142945_j5334349382092_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangle of every access of the body: the whole 64 × 16384 tile. -/
abbrev tile : Rect S64x16384 := Rect.unit (s := S64x16384) ![0, 0] S64x16384.size inb_S64x16384_S64x16384_0_0

/-- The output tile after the body, from the gate tile `g` and the up tile `u`: the one store, of
    (g · logistic g) · u, laid over the whole tile. -/
def outTile (g : Vec F S64x16384 .f32) (u : Vec F S64x16384 .f32) : Vec F S64x16384 .f32 :=
  View.canon [⟨tile, k0_pay1 (View.ld g tile) (View.ld u tile)⟩]

/-- The one store covers the tile. -/
theorem outTile_cover (p0 : Vec F S64x16384 .f32) (y : S64x16384.Idx) :
    ∃ pc ∈ ([⟨tile, p0⟩] : List (View.Piece (Elt F) S64x16384 .f32)), y ∈ pc.1.set :=
  View.cover_of_tiled [⟨tile, p0⟩] S64x16384.size (by rfl) y

set_option maxHeartbeats 1000000 in
/-- The body on three whole staging buffers — gate at `g`, up at `u`, output at anything — runs without fault
    and leaves the inputs as they were and the output at `outTile g u`. -/
theorem body_triple (c : Dev nD) (E : Set ℕ) (i : grid0.Coords)
    (arg1 : Memref sig .tc .vmem S64x16384 .f32) (harg1 : arg1.IsWhole)
    (arg2 : Memref sig .tc .vmem S64x16384 .f32) (harg2 : arg2.IsWhole)
    (arg3 : Memref sig .tc .vmem S64x16384 .f32) (harg3 : arg3.IsWhole)
    (g : Vec F S64x16384 .f32) (u : Vec F S64x16384 .f32) (K : PUnit → sProp 𝕄) :
    iprop(owns (c : Thread nD τ) arg1 fullShare g ∗ owns (c : Thread nD τ) arg2 fullShare u ∗ (∃ d, owns (c : Thread nD τ) arg3 fullShare d)
        ∗ (iprop(owns (c : Thread nD τ) arg1 fullShare g ∗ owns (c : Thread nD τ) arg2 fullShare u ∗ owns (c : Thread nD τ) arg3 fullShare (outTile g u)) -∗ K ⟨⟩))
      ⊢ wp frame (wpE (defs₀ (F := F)) Variants.none c none) E (cc0__silu_mul_kernel i arg1 harg1 arg2 harg2 arg3 harg3) K := by
  simp only [cc0__silu_mul_kernel_eq_skeleton]; unfold cc0__silu_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outTile_cover _)

end Cert.KernelIdeal.Hand

end
-- ==== Proof.DataKI.lean ====
/-
  The proof data of the one pipeline. The region finds the reshaped input (8192 × 32768) in one buffer that
  two input windows read: at grid point t the gate window stages rows 64·t … 64·t+63 of columns 0 … 16383 and
  the up window the same rows of columns 16384 … 32767; the output window's tile of point t goes to the same
  rows of the 8192 × 16384 result. Each input window holds half of the share of the common buffer.
  After the body at point t the input tiles are as fetched and the output tile is `outTile` of them.
-/
import proofs.«142945_j5334349382092_2_alg».proof.Proof.BodyKI
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents when the region is entered -/

/-- Core `c`'s buffers at launch. -/
abbrev W0 : Dev nD → Valuation τ sig (Elt F) := fun c b => (s₀ m ρ).mem ((c : Dev nD), b)
/-- After the reshape of the argument to 8192 × 32768: what the region is entered with. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b

/-- Window `w`'s tile at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V1 m ρ c (Pipeline.arrRef spec0 w))

/-! ## The proof data -/

/-- The share each window holds of its array: the two input windows on the common buffer a half each. -/
def qshare : Fin cfg0.W → PosShare TreeShare
  | ⟨0, _⟩ => fullShare.left
  | ⟨1, _⟩ => fullShare.right
  | _ => fullShare

def dats (_ : Fin 1) (c : Dev nD) : Dat τ (Elt F) Unit ℕ (UR sig nD τ) ℕ cfg0 c where
  A w := V1 m ρ c (Pipeline.arrRef spec0 w)
  after w t := match w with
    | ⟨0, _⟩ => iblk m ρ c 0 t
    | ⟨1, _⟩ => iblk m ρ c 1 t
    | ⟨2, _⟩ => outTile (iblk m ρ c 0 t) (iblk m ρ c 1 t)
  Φ _ := Pipeline.ΦA spec0 c
  q := qshare
  owed _ := 0

theorem A_eq (c : Dev nD) (w : Fin cfg0.W) : (dats m ρ 0 c).A w = V1 m ρ c (Pipeline.arrRef spec0 w) := by
  dsimp only [dats]

theorem after0_0 (c : Dev nD) (t : Fin cfg0.N) : (dats m ρ 0 c).after 0 t = iblk m ρ c 0 t := by dsimp only [dats]
theorem after0_1 (c : Dev nD) (t : Fin cfg0.N) : (dats m ρ 0 c).after 1 t = iblk m ρ c 1 t := by dsimp only [dats]
theorem after0_2 (c : Dev nD) (t : Fin cfg0.N) :
    (dats m ρ 0 c).after 2 t = outTile (iblk m ρ c 0 t) (iblk m ρ c 1 t) := by dsimp only [dats]

/-- Each input window is fetched at every point, so its staging buffer holds its tile when the body runs. -/
theorem before0_0 (c : Dev nD) (t : Fin cfg0.N) (d) : (dats m ρ 0 c).before 0 t d = iblk m ρ c 0 t :=
  ((dats m ρ 0 c).before_fetched 0 t (fetch0_0 t) d).trans
    (by unfold Dat.fetched Dat.blockOf iblk; rw [A_eq]; try rfl)
theorem before0_1 (c : Dev nD) (t : Fin cfg0.N) (d) : (dats m ρ 0 c).before 1 t d = iblk m ρ c 1 t :=
  ((dats m ρ 0 c).before_fetched 1 t (fetch0_1 t) d).trans
    (by unfold Dat.fetched Dat.blockOf iblk; rw [A_eq]; try rfl)

/-! ## The body obligation -/

def bodyPre (c : Dev nD) (t : Fin cfg0.N) : sProp 𝕄 :=
  iprop((dats m ρ 0 c).Φ t.castSucc ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d)))

def bodyPost (c : Dev nD) (t : Fin cfg0.N) : sProp 𝕄 :=
  iprop((dats m ρ 0 c).Φ t.succ ∗ (dats m ρ 0 c).owesAt () t.succ
    ∗ owns (c : Thread nD τ) (st0_0 t) fullShare ((dats m ρ 0 c).after 0 t)
    ∗ owns (c : Thread nD τ) (st0_1 t) fullShare ((dats m ρ 0 c).after 1 t)
    ∗ owns (c : Thread nD τ) (st0_2 t) fullShare ((dats m ρ 0 c).after 2 t))

theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0_0, before0_1]
  rw [show (dats m ρ 0 c).Φ t.succ = (dats m ρ 0 c).Φ t.castSucc from rfl,
    show (dats m ρ 0 c).owesAt () t.succ = (dats m ρ 0 c).owesAt () t.castSucc from rfl,
    after0_0, after0_1, after0_2]
  iintro ⟨HΦ, Ho, ⟨%d0, H0⟩, ⟨%d1, H1⟩, ⟨%d2, H2⟩⟩
  iapply (body_triple c Set.univ (grid0.coords t) _ _ _ _ _ _ (iblk m ρ c 0 t) (iblk m ρ c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m ρ 0 c) (defs₀ (F := F)) Variants.none () Set.univ := fun t => by
  rw [bigSep_W0, bigSep_W0]
  exact sound_body m ρ c t

end Cert.KernelIdeal.Hand

end
-- ==== Proof.ShareKI.lean ====
/-
  How the buffers are handed to the pipeline and taken back. The device has four unscoped buffers: the argument,
  its 8192 × 32768 reshape, the pipeline's 8192 × 16384 result and the final reshape. The pipeline's three windows
  stand on two of them: the gate window and the up window both on the reshaped input, the output window on the result.
  At entry the full share of the reshaped input is cut in two halves, one per input window; at exit the halves,
  still holding the contents found at entry, are put together again.
-/
import proofs.«142945_j5334349382092_2_alg».proof.Proof.DataKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The device's unscoped buffers, one by one. -/
theorem unscopedBufs_list (c : Dev nD) (V : (b : Ref sig .tc) → Buf (Elt F) ((c : Thread nD τ).loc b)) :
    (unscopedBufs c V : sProp 𝕄)
      = iprop((((c : Thread nD τ).loc main_arg0) ↦{fullShare} V main_arg0) ∗ (((c : Thread nD τ).loc main_v0) ↦{fullShare} V main_v0)
          ∗ (((c : Thread nD τ).loc main_v1) ↦{fullShare} V main_v1) ∗ (((c : Thread nD τ).loc main_v2) ↦{fullShare} V main_v2)) := by
  unfold unscopedBufs
  exact bigSep_eq_bigSepL_of_eq [main_arg0, main_v0, main_v1, main_v2] (by decide) (by decide) _

/-- The pipeline's arrays, window by window, each at its share. -/
theorem arrays_list (c : Dev nD)
    (A : (w : Fin cfg0.W) → Buf (Elt F) ((cfg0.win w).arr.view.loc (c : Thread nD τ))) :
    ((dats m ρ 0 c).arrays A : sProp 𝕄)
      = iprop((((c : Thread nD τ).loc main_v0) ↦{fullShare.left} A 0) ∗ (((c : Thread nD τ).loc main_v0) ↦{fullShare.right} A 1)
          ∗ (((c : Thread nD τ).loc main_v1) ↦{fullShare} A 2)) := by
  unfold Dat.arrays
  rw [bigSep_W0]
  rw [(arr_whole0 0).set_eq_univ, (arr_whole0 2).set_eq_univ]
  rfl

/-! ## The contents when the region is left -/

/-- When the region is left the result buffer holds what the write-backs of all points made of it; every other buffer
    is as the region found it. -/
def W2 (c : Dev nD) : Valuation τ sig (Elt F) :=
  Function.update (W1 m ρ c) (Proc.devRef .tc main_v1) ((dats m ρ 0 c).arrAt 2 cfg0.N)
/-- The same, read at the TensorCore's references. -/
abbrev V2 : (c : Dev nD) → (b : Ref sig .tc) → Buf (Elt F) ((c : Thread nD τ).loc b) := fun c b => W2 m ρ c b

theorem V2_v1 (c : Dev nD) : V2 m ρ c main_v1 = (dats m ρ 0 c).arrAt 2 cfg0.N := by
  show W2 m ρ c (Proc.devRef .tc main_v1) = _
  unfold W2; exact Function.update_self ..
theorem V2_of_ne (c : Dev nD) (b : Ref sig .tc) (h : b ≠ main_v1) : V2 m ρ c b = V1 m ρ c b := by
  show W2 m ρ c (Proc.devRef .tc b) = W1 m ρ c (Proc.devRef .tc b)
  unfold W2; exact Function.update_of_ne (StableHlo.devRef_ne_of_ne h) ..

/-- An input window's array is never written: after all points it holds what the region found. -/
theorem arrAt_in0 (c : Dev nD) (n : Nat) : (dats m ρ 0 c).arrAt 0 n = V1 m ρ c main_v0 :=
  ((dats m ρ 0 c).arrAt_in 0 rfl n).trans (A_eq m ρ c 0)
theorem arrAt_in1 (c : Dev nD) (n : Nat) : (dats m ρ 0 c).arrAt 1 n = V1 m ρ c main_v0 :=
  ((dats m ρ 0 c).arrAt_in 1 rfl n).trans (A_eq m ρ c 1)

/-- ENTRY: the unscoped buffers as the region finds them are the pipeline's arrays at their entry contents — the
    reshaped input's share halved between the two input windows — and the two buffers no window stands on. -/
theorem entry_split (c : Dev nD) :
    (unscopedBufs c (V1 m ρ c) : sProp 𝕄)
      ⊢ iprop((dats m ρ 0 c).arrays ((dats m ρ 0 c).arrAt · 0) ∗ Pipeline.unscopedRest spec0 c (V1 m ρ c)) := by
  rw [unscopedBufs_list, arrays_list, unscopedRest0_eq]
  beta_reduce
  rw [arrAt_in0, arrAt_in1, show (dats m ρ 0 c).arrAt 2 0 = V1 m ρ c main_v1 from A_eq m ρ c 2]
  have hs : ((((c : Thread nD τ).loc main_v0) ↦{fullShare} V1 m ρ c main_v0) : sProp 𝕄)
      ⊢ iprop((((c : Thread nD τ).loc main_v0) ↦{fullShare.left} V1 m ρ c main_v0) ∗ (((c : Thread nD τ).loc main_v0) ↦{fullShare.right} V1 m ρ c main_v0)) :=
    (pointsTo_share (PosShare.mem_left_op_right fullShare)).1
  iintro ⟨Ha, H0, H1, H2⟩
  ihave H0' := hs $$ H0
  icases H0' with ⟨Hl, Hr⟩
  isplitl [Hl Hr H1]
  · isplitl [Hl]; · iexact Hl
    isplitl [Hr]; · iexact Hr
    iexact H1
  isplitl [Ha]; · iexact Ha
  iexact H2

/-- EXIT: the arrays after all points and the two bypassing buffers are the unscoped buffers at the exit contents. -/
theorem exit_join (c : Dev nD) :
    iprop((dats m ρ 0 c).arrays ((dats m ρ 0 c).arrAt · cfg0.N) ∗ Pipeline.unscopedRest spec0 c (V1 m ρ c))
      ⊢ (unscopedBufs c (V2 m ρ c) : sProp 𝕄) := by
  rw [unscopedBufs_list, arrays_list, unscopedRest0_eq]
  beta_reduce
  rw [arrAt_in0, arrAt_in1, V2_v1, V2_of_ne m ρ c main_arg0 (by decide), V2_of_ne m ρ c main_v0 (by decide),
    V2_of_ne m ρ c main_v2 (by decide)]
  have hj : iprop((((c : Thread nD τ).loc main_v0) ↦{fullShare.left} V1 m ρ c main_v0) ∗ (((c : Thread nD τ).loc main_v0) ↦{fullShare.right} V1 m ρ c main_v0))
      ⊢ ((((c : Thread nD τ).loc main_v0) ↦{fullShare} V1 m ρ c main_v0) : sProp 𝕄) :=
    (pointsTo_share (PosShare.mem_left_op_right fullShare)).2
  iintro ⟨⟨Hl, Hr, H1⟩, Ha, H2⟩
  ihave H0 := hj $$ [Hl Hr]
  · isplitl [Hl] <;> iassumption
  isplitl [Ha]; · iexact Ha
  isplitl [H0]; · iexact H0
  isplitl [H1]; · iexact H1
  iexact H2

end Cert.KernelIdeal.Hand

end
-- ==== Proof.RunKI.lean ====
/-
  The run of the whole program: the reshape of the argument, the pipeline's region, the reshape of its result.
  Between these three stretches the device holds its four unscoped buffers whole at known contents; the region
  takes its arrays out of them at entry and puts them back at exit. Every weakly fair execution terminates without
  fault, and the final memory holds, at every unscoped buffer, the contents computed here.
-/
import proofs.«142945_j5334349382092_2_alg».proof.Proof.ShareKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the reshape of the pipeline's result: the contents at the return. -/
abbrev W3 : Dev nD → Valuation τ sig (Elt F) := fun c => StableHlo.after hostOps1 (W2 m ρ c)

abbrev adm : (p : Fin 1) → (pcfgs (F := F) p).Adm := fun p => (cfgs p).toPCfg_adm
abbrev 𝒱₀ : Variants := Variants.none
abbrev L : GSem nD τ sig → Finset Unit := fun _ => ∅
abbrev lv : GSem nD τ sig → Unit → ℕ := fun _ _ => 0

/-- What rides beside the buffers through every stretch: the generator register at some state, and the core owing nothing. -/
abbrev R (c : Dev nD) : sProp 𝕄 := iprop((∃ r, prngReg c r) ∗ ∃ W, owes (c : Thread nD τ) (0 : CellTallies nD τ sig Unit) W)

/-- A stretch of host operations over the unscoped buffers at the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last state without the `owes`: every unscoped buffer at the contents at the return. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- The region: entered from every unscoped buffer at the contents after the first reshape, left with the result
    buffer at what the pipeline wrote. -/
def reg0 : Pipeline.RegionSeg (pcfgs (F := F)) adm (dats m ρ) () defs₀ 𝒱₀ L lv 0 where
  win := winFacts₀0
  block_pos := block_pos0
  stage_whole := stage_whole0
  K := PEmpty
  osem k := k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's three stretches in order. -/
abbrev segs : List (Pipeline.Seg (pcfgs (F := F)) adm (dats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]

theorem main_run (c : Dev nD) : main (F := F) c = Pipeline.Seg.run (segs m ρ) :=
  main_segs adm (dats m ρ) () 𝒱₀ L lv (hseg hostOps0 hostOps0_sub hostOps0_fresh (W0 m ρ))
    (hseg hostOps1 hostOps1_sub hostOps1_fresh (W2 m ρ)) (reg0 m ρ) rfl rfl c

set_option backward.isDefEq.respectTransparency.types false in
/-- Every weakly fair execution of the program terminates without fault, and the final memory holds at every unscoped
    buffer the contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (dats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (StableHlo.after hostOps1 (W2 m ρ c)) ∗ R c) ⊢ _
      iintro ⟨Hh, Hp, HO⟩
      isplitr [HO]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Hand

end
-- ==== Proof.FinalKI.lean ====
/-
  What the program leaves in memory, as functions of the argument x : f32[4, 2048, 32768].

  Write x2 for x read as 8192 × 32768 (row r = 2048·b + s). The pipeline's result is the 8192 × 16384 array
      y2[r, j] = (x2[r, j] · logistic(x2[r, j])) · x2[r, j + 16384],
  because the tile of grid point t is rows 64·t … 64·t+63, the gate window reads those rows at columns j, the up
  window at columns j + 16384, the body is entry by entry, and the 128 output tiles cover all 8192 rows.
  The program's result is y2 read as 4 × 2048 × 16384. The argument itself is written by nothing.
-/
import proofs.«142945_j5334349382092_2_alg».proof.Proof.RunKI
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## The pipeline's result as one function of the reshaped input -/

/-- Column j of the gate half, and of the up half, of a row of 32768. -/
def gateCol (j : Fin 16384) : Fin 32768 := ⟨j.val, by omega⟩
def upCol (j : Fin 16384) : Fin 32768 := ⟨j.val + 16384, by omega⟩

/-- y2 of the header, from x2. -/
def tileSpec (a : S8192x32768.Idx → Elt F .f32) : S8192x16384.Idx → Elt F .f32 := fun i =>
  FloatOps.mulf (FloatOps.mulf (a (ix2 (i 0) (gateCol (i 1)))) (FloatOps.logistic (a (ix2 (i 0) (gateCol (i 1))))))
    (a (ix2 (i 0) (upCol (i 1))))

theorem origin_zero : (![0, 0] : Fin 2 → Nat) = fun _ => 0 := funext fun a => by fin_cases a <;> rfl

/-- The body's arithmetic entry by entry. -/
theorem pay_apply (g u : Vec F S64x16384 .f32) (j : S64x16384.Idx) :
    k0_pay1 g u j = FloatOps.mulf (FloatOps.mulf (g j) (FloatOps.logistic (g j))) (u j) := by
  unfold k0_pay1
  simp only [shapeCast_self]
  rfl

/-- The block indices of the three windows at every grid point: all on block row t; the gate and the output
    windows on block column 0, the up window on block column 1. -/
theorem block_indices : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 1
    ∧ win0_2.index t (1 : Fin 2) = 0
    ∧ win0_2.index t (0 : Fin 2) = t.val :=
  (by decide +kernel : ∀ t : Fin grid0.N, _)

/-- What point t writes back is tile t of `tileSpec` of the reshaped input. -/
theorem flushed_eq (c : Dev nD) (t : Fin cfg0.N) :
    (dats m ρ 0 c).flushed 2 t = ((cfg0.win 2).blk t).view.read (Elt F) (tileSpec (V1 m ρ c main_v0)) := by
  show (cfg0.win 2).cut (grid0.coords t) ((dats m ρ 0 c).after 2 t) = _
  rw [after0_2]
  unfold outTile
  rw [View.canon_unit_zero origin_zero]
  simp only [View.ld_unit_zero (S := S64x16384) origin_zero]
  obtain ⟨e0, e1, e2, e3, e4, e5⟩ := block_indices t
  funext j
  show k0_pay1 (iblk m ρ c 0 t) (iblk m ρ c 1 t) j = tileSpec (V1 m ρ c main_v0) (((cfg0.win 2).blk t).view.emb j)
  rw [pay_apply]
  have h0 : ((cfg0.win 0).blk t).view.emb j
      = ix2 ((((cfg0.win 2).blk t).view.emb j) 0) (gateCol ((((cfg0.win 2).blk t).view.emb j) 1)) := by
    funext a; apply Fin.ext
    match a with
    | ⟨0, _⟩ => show win0_0.index t (0 : Fin 2) * 64 + 1 * (j 0).val = win0_2.index t (0 : Fin 2) * 64 + 1 * (j 0).val; omega
    | ⟨1, _⟩ => show win0_0.index t (1 : Fin 2) * 16384 + 1 * (j 1).val = win0_2.index t (1 : Fin 2) * 16384 + 1 * (j 1).val; omega
  have h1 : ((cfg0.win 1).blk t).view.emb j
      = ix2 ((((cfg0.win 2).blk t).view.emb j) 0) (upCol ((((cfg0.win 2).blk t).view.emb j) 1)) := by
    funext a; apply Fin.ext
    match a with
    | ⟨0, _⟩ => show win0_1.index t (0 : Fin 2) * 64 + 1 * (j 0).val = win0_2.index t (0 : Fin 2) * 64 + 1 * (j 0).val; omega
    | ⟨1, _⟩ => show win0_1.index t (1 : Fin 2) * 16384 + 1 * (j 1).val = win0_2.index t (1 : Fin 2) * 16384 + 1 * (j 1).val + 16384; omega
  show FloatOps.mulf (FloatOps.mulf (V1 m ρ c main_v0 (((cfg0.win 0).blk t).view.emb j)) (FloatOps.logistic (V1 m ρ c main_v0 (((cfg0.win 0).blk t).view.emb j))))
      (V1 m ρ c main_v0 (((cfg0.win 1).blk t).view.emb j))
    = tileSpec (V1 m ρ c main_v0) (((cfg0.win 2).blk t).view.emb j)
  rw [h0, h1]
  rfl

/-- An index of the result is in point t's tile iff its row is among the tile's rows and its column among all columns. -/
theorem mem_tile (t : Fin cfg0.N) (i : S8192x16384.Idx) :
    i ∈ ((cfg0.win 2).blk t).view.set ↔ ∀ a : Fin 2, win0_2.index t a * S64x16384.size a ≤ (i a).val ∧ (i a).val < win0_2.index t a * S64x16384.size a + S64x16384.size a := by
  show i ∈ ((View.whole main_v1).slice (win0_2.rect t)).set ↔ _
  rw [View.set_slice_whole, Rect.mem_set_unit]
  exact Iff.rfl

/-- Every entry of the result lies in the tile of the point numbered by its row divided by 64. -/
theorem tiles_cover (i : S8192x16384.Idx) :
    ∃ t : Fin cfg0.N, (cfg0.win 2).flush t = true ∧ i ∈ ((cfg0.win 2).blk t).view.set := by
  have hi0 : (i 0).val < 8192 := (i 0).isLt
  have hi1 : (i 1).val < 16384 := (i 1).isLt
  let t : Fin cfg0.N := ⟨(i 0).val / 64, by rw [show cfg0.N = 128 from N_0]; omega⟩
  obtain ⟨e0, e1, e2, e3, e4, e5⟩ := block_indices t
  have e5' : win0_2.index t (0 : Fin 2) = (i 0).val / 64 := e5
  refine ⟨t, flush0_2 t, ?_⟩
  rw [mem_tile]
  intro a
  match a with
  | ⟨0, _⟩ => show win0_2.index t (0 : Fin 2) * 64 ≤ (i 0).val ∧ (i 0).val < win0_2.index t (0 : Fin 2) * 64 + 64; omega
  | ⟨1, _⟩ => show win0_2.index t (1 : Fin 2) * 16384 ≤ (i 1).val ∧ (i 1).val < win0_2.index t (1 : Fin 2) * 16384 + 16384; omega

/-- The pipeline's result after all points. -/
theorem result_eq (c : Dev nD) : (dats m ρ 0 c).arrAt 2 cfg0.N = tileSpec (V1 m ρ c main_v0) :=
  (dats m ρ 0 c).arrAt_eq_of_cover 2 (tileSpec (V1 m ρ c main_v0)) (fun t _ => flushed_eq m ρ c t) tiles_cover

end Cert.KernelIdeal.Hand

end
-- ==== Proof.FrameKI.lean ====
/-
  The argument array is written by nothing: neither reshape writes it and the pipeline has no window on it.
  So after every weakly fair execution it holds what it held at launch.
-/
import proofs.«142945_j5334349382092_2_alg».proof.Proof.RunKI

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- The first reshape writes only its result. -/
theorem hostOps0_keeps (c : Dev nD) (V : Valuation τ sig (Elt F)) (b : Ref sig .tc) (hb : b ≠ main_v0) :
    StableHlo.after hostOps0 V (Proc.devRef .tc b) = V (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The second reshape writes only its result. -/
theorem hostOps1_keeps (c : Dev nD) (V : Valuation τ sig (Elt F)) (b : Ref sig .tc) (hb : b ≠ main_v2) :
    StableHlo.after hostOps1 V (Proc.devRef .tc b) = V (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- At the return the argument holds what it held at launch. -/
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := hostOps1_keeps c _ main_arg0 (by decide)
    _ = W1 m ρ c (Proc.devRef .tc main_arg0) := V2_of_ne m ρ c main_arg0 (by decide)
    _ = W0 m ρ c (Proc.devRef .tc main_arg0) := hostOps0_keeps c _ main_arg0 (by decide)
    _ = m ((c : Thread nD τ).loc main_arg0) := rfl

/-- The program runs to the end without fault and leaves its argument unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W3_arg0 m ρ c)) (run_main m ρ)

end Cert.KernelIdeal.Hand

end
-- ==== Proof.ValueKI.lean ====
/-
  The program's result as a function of its argument x : f32[4, 2048, 32768], for any float interpretation:
      result[b, s, j] = (x[b, s, j] · logistic(x[b, s, j])) · x[b, s, j + 16384].
  The argument is read as 8192 × 32768 by a reshape (row 2048·b + s), the pipeline produces y2 (`tileSpec`), and the
  result is y2 read as 4 × 2048 × 16384 by a reshape: both reshapes keep the row-major position of every entry.
-/
import proofs.«142945_j5334349382092_2_alg».proof.Proof.FinalKI
import proofs.«142945_j5334349382092_2_alg».proof.Proof.FrameKI

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]

variable (m : (ℓ : Loc nD τ sig) → Buf (Elt F) ℓ) (ρ : Dev nD → PrngReg)

/-- The result from the argument: reshape, the pipeline's function, reshape. -/
def kernelSpec (x : S4x2048x32768.Idx → Elt F .f32) : S4x2048x16384.Idx → Elt F .f32 :=
  shapeCast S4x2048x16384 (tileSpec (shapeCast S8192x32768 x shapeCasts_S4x2048x32768_S8192x32768))
    shapeCasts_S8192x16384_S4x2048x16384

/-- The region finds the reshaped argument in its input buffer. -/
theorem V1_v0 (c : Dev nD) :
    V1 m ρ c main_v0 = shapeCast S8192x32768 (m ((c : Thread nD τ).loc main_arg0)) shapeCasts_S4x2048x32768_S8192x32768 := by
  show (StableHlo.reshape main_arg0 main_v0 rfl shapeCasts_S4x2048x32768_S8192x32768 : HloOp τ sig (Elt F)).result (W0 m ρ c) (Proc.devRef .tc main_v0) = _
  rw [StableHlo.reshape_result]
  rfl

/-- At the return the result buffer holds `kernelSpec` of the argument. -/
theorem W3_v2 (c : Dev nD) : W3 m ρ c (Proc.devRef .tc main_v2) = kernelSpec (m ((c : Thread nD τ).loc main_arg0)) := by
  have h : W3 m ρ c (Proc.devRef .tc main_v2)
      = (fun i => shapeCast S4x2048x16384 (V2 m ρ c main_v1) shapeCasts_S8192x16384_S4x2048x16384 i) := by
    simp only [hostOps1, StableHlo.after_cons, StableHlo.after_nil]
    rw [StableHlo.reshape_result]
    rfl
  rw [h, V2_v1, result_eq, V1_v0]
  rfl

/-- The program runs to the end without fault, its result is `kernelSpec` of the argument, the argument is unchanged. -/
theorem run_value : θ_run defs (onTc (τ := τ) (main (F := F))) ⟨m, fun _ => 0, ρ⟩ (fun r => ∀ c : Dev nD,
      r.2.mem ((c.tc : Thread nD τ).loc main_v2) = kernelSpec (m ((c.tc : Thread nD τ).loc main_arg0))
      ∧ r.2.mem ((c.tc : Thread nD τ).loc main_arg0) = m ((c.tc : Thread nD τ).loc main_arg0)) :=
  (θ_run defs _ _).mono (fun _ h c => ⟨(h c _ (mem_uc main_v2 (by decide))).trans (W3_v2 m ρ c),
      (h c _ (mem_uc main_arg0 (by decide))).trans (W3_arg0 m ρ c)⟩) (run_main m ρ)

/-- `kernelSpec` read at an index. -/
theorem kernelSpec_apply (x : S4x2048x32768.Idx → Elt F .f32) (b : Fin 4) (s : Fin 2048) (j : Fin 16384) :
    kernelSpec x (ix3 b s j)
      = FloatOps.mulf (FloatOps.mulf (x (ix3 b s (gateCol j))) (FloatOps.logistic (x (ix3 b s (gateCol j))))) (x (ix3 b s (upCol j))) := by
  have hb := b.isLt
  have hs := s.isLt
  have hj := j.isLt
  let r : Fin 8192 := ⟨b.val * 2048 + s.val, by omega⟩
  unfold kernelSpec
  rw [shapeCast_apply _ shapeCasts_S8192x16384_S4x2048x16384 (ix3 b s j) (ix2 r j) (by
    rw [Shape.rowMajor_val_two, Shape.rowMajor_val_three]
    show (b.val * 2048 + s.val) * 16384 + j.val = (b.val * 2048 + s.val) * 16384 + j.val
    rfl)]
  show FloatOps.mulf (FloatOps.mulf (shapeCast S8192x32768 x _ (ix2 r (gateCol j))) (FloatOps.logistic (shapeCast S8192x32768 x _ (ix2 r (gateCol j)))))
      (shapeCast S8192x32768 x _ (ix2 r (upCol j))) = _
  rw [shapeCast_apply x shapeCasts_S4x2048x32768_S8192x32768 (ix2 r (gateCol j)) (ix3 b s (gateCol j)) (by
      rw [Shape.rowMajor_val_two, Shape.rowMajor_val_three]
      show (b.val * 2048 + s.val) * 32768 + j.val = (b.val * 2048 + s.val) * 32768 + j.val
      rfl),
    shapeCast_apply x shapeCasts_S4x2048x32768_S8192x32768 (ix2 r (upCol j)) (ix3 b s (upCol j)) (by
      rw [Shape.rowMajor_val_two, Shape.rowMajor_val_three]
      show (b.val * 2048 + s.val) * 32768 + (j.val + 16384) = (b.val * 2048 + s.val) * 32768 + (j.val + 16384)
      rfl)]

end Cert.KernelIdeal.Hand

end
-- ==== Proof.Bridge.lean ====
/-
  At the ideal instance a float is an extended real and every operation is exact. There the kernel's
  logistic(z) is by definition 1 / (1 + exp(−z)), which is what the reference spells with a negation, an
  exponential, an addition of the constant 1 and a division of the constant 1; the reference's two slices of the
  last axis are the columns j and j + 16384. So index by index both programs compute
      (x[b, s, j] · (1 / (1 + exp(−x[b, s, j])))) · x[b, s, j + 16384],
  with no use of finiteness: the two terms are the same expression of the extended reals.
-/
import proofs.«142945_j5334349382092_2_alg».proof.Defs
import proofs.«142945_j5334349382092_2_alg».proof.Proof.Gen.Pre_finite_inputs
import proofs.«142945_j5334349382092_2_alg».proof.Proof.ValueKI
import proofs.«142945_j5334349382092_2_alg».proof.Proof.FrameK
import proofs.«142945_j5334349382092_2_alg».proof.Proof.Gen.ReferenceIdeal.Run
import proofs.«142945_j5334349382092_2_alg».proof.Proof.Gen.ReferenceIdeal.Read
import Idealize.ShloMosaic.PureOps.Ideal.Laws

set_option maxRecDepth 16384

noncomputable section

namespace Cert.Bridge

open Idealize.ShloMosaic Idealize.ShloMosaic.TcCoe Idealize.ShloMosaic.ValueIdx
open Cert.KernelIdeal.Hand Cert.ReferenceIdeal.Read

/-- The bit pattern 0x3F800000 is the number 1. -/
theorem one_f32 : Ideal.ofBits .f32 0x3F800000#32 = 1 := by
  simp [Ideal.ofBits, Ideal.ieee, -EReal.coe_mul]; norm_num

/-- The reference's first slice reads column j, its second column j + 16384. -/
theorem gate_index (b : Fin 4) (s : Fin 2048) (j : Fin 16384) : idx_main_v0 (ix3 b s j) = ix3 b s (gateCol j) :=
  funext fun a => Fin.ext (by match a with | ⟨0, _⟩ => rfl | ⟨1, _⟩ => rfl | ⟨2, _⟩ => rfl)
theorem up_index (b : Fin 4) (s : Fin 2048) (j : Fin 16384) : idx_main_v1 (ix3 b s j) = ix3 b s (upCol j) :=
  funext fun a => Fin.ext (by
    match a with
    | ⟨0, _⟩ => rfl
    | ⟨1, _⟩ => rfl
    | ⟨2, _⟩ => show 16384 + j.val = j.val + 16384; omega)

/-- The reference's result is the kernel's function of the argument. -/
theorem reference_eq (x : Cert.KernelIdeal.S4x2048x32768.Idx → Elt Ideal .f32) :
    val_main_v3 (F := Ideal) x = kernelSpec (F := Ideal) x := by
  funext i
  obtain ⟨b, s, j, rfl⟩ : ∃ (b : Fin 4) (s : Fin 2048) (j : Fin 16384), i = ix3 b s j := ⟨i 0, i 1, i 2, eq_ix3 i⟩
  rw [kernelSpec_apply]
  rw [val_main_v3_apply, val_main_v2_apply, val_main_call0_v5_apply, val_main_call0_v4_apply, val_main_call0_cst_0_apply,
    val_main_call0_v3_apply, val_main_call0_v2_apply, val_main_call0_cst_apply, val_main_call0_v1_apply,
    val_main_call0_v0_apply, val_main_v0_apply, val_main_v1_apply, gate_index, up_index]
  simp only [Ideal.ofBits_def, Ideal.addf_def, Ideal.mulf_def, Ideal.hostDivf_def, Ideal.hostUnary_exp_def,
    Ideal.hostNegf_def, Ideal.negf_def, Ideal.logistic_def, one_f32, Ideal.logistic]

end Cert.Bridge

/-! ## The five claims -/

namespace Cert.Proof.Claims

open Idealize.ShloMosaic Idealize.ShloMosaic.TcCoe Idealize.SL.Sem

/-- The word-level kernel runs to the end and leaves its argument unchanged. -/
theorem frame_k : Cert.frame_Kernel := fun m ρ _ => Cert.Kernel.Hand.frame m ρ
/-- So does its idealization. -/
theorem frame_ki : Cert.frame_KernelIdeal := fun m ρ _ => Cert.KernelIdeal.Hand.frame m ρ
/-- The reference is a line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the argument both programs end with the same result: `kernelSpec` of the argument. -/
theorem algebraic : Cert.algebraic_KernelIdeal_ReferenceIdeal := by
  intro m ρ m' ρ' _ hagree
  refine ⟨fun c => Cert.KernelIdeal.Hand.kernelSpec (F := Ideal) (m ((c.tc : Thread Cert.KernelIdeal.nD Cert.KernelIdeal.τ).loc Cert.KernelIdeal.main_arg0)),
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, hagree c]
  exact Cert.Bridge.reference_eq _

end Cert.Proof.Claims

end
-- ==== Proof.lean ====
/-
  The certificate of a SiLU-and-multiply kernel against its jnp reference.

  Both programs take x : f32[4, 2048, 32768] and return f32[4, 2048, 16384]. The kernel reads x as 8192 rows of 32768,
  walks 128 tiles of 64 rows, and per tile stores (g · logistic g) · u where g is the left half of the rows and u the right
  half; the reference slices the last axis in two and computes (g · (1 / (1 + exp(−g)))) · u. At the ideal instance the two
  are the same function of x, index by index (Proof/Bridge.lean). Both input windows of the kernel stand on ONE buffer, so
  the run's account gives each of them half of that buffer's share (Proof/ShareKI.lean) and runs the program as three
  stretches — reshape, region, reshape (Proof/RunKI.lean). The ideal pass rewrote nothing, so `preserves` is trivial.
-/
import proofs.«142945_j5334349382092_2_alg».proof.Defs
import proofs.«142945_j5334349382092_2_alg».proof.Proof.Gen.Kernel
import proofs.«142945_j5334349382092_2_alg».proof.Proof.Gen.KernelIdeal
import proofs.«142945_j5334349382092_2_alg».proof.Proof.Gen.ReferenceIdeal
import proofs.«142945_j5334349382092_2_alg».proof.Proof.Gen.Pre_finite_inputs
import proofs.«142945_j5334349382092_2_alg».proof.Proof.FrameK
import proofs.«142945_j5334349382092_2_alg».proof.Proof.Bridge
import Idealize.ShloMosaic.Adequacy
import Idealize.ShloMosaic.Init

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
